-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S512x512 : Shape := ⟨2, ![512, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S128x512 .f32) (main_arg1 : FVec F S128x512 .f32) (main_arg2 : FVec F S512x512 .f32) (main_arg3 : FVec F S512x512 .f32) (main_arg4 : IVec S512x512 1) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S128x512 : Shape := ⟨2, ![128, 512]⟩
abbrev S512x512 : Shape := ⟨2, ![512, 512]⟩
abbrev S_ : Shape := ⟨0, ![]⟩
abbrev S512x1024 : Shape := ⟨2, ![512, 1024]⟩
abbrev S1024x1024 : Shape := ⟨2, ![1024, 1024]⟩
abbrev S128x1024 : Shape := ⟨2, ![128, 1024]⟩

abbrev nBuf : Space → Nat
  | .hbm => 40
  | .vmem => 3
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S512x512, .f32⟩
  | .hbm, ⟨3, _⟩ => ⟨S512x512, .f32⟩
  | .hbm, ⟨4, _⟩ => ⟨S512x512, .i1⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x1024, .f32⟩
  | .hbm, ⟨34, _⟩ => ⟨S512x1024, .f32⟩
  | .hbm, ⟨35, _⟩ => ⟨S1024x1024, .f32⟩
  | .hbm, ⟨36, _⟩ => ⟨S128x1024, .f32⟩
  | .hbm, ⟨37, _⟩ => ⟨S128x1024, .f32⟩
  | .hbm, ⟨38, _⟩ => ⟨S128x512, .f32⟩
  | .hbm, ⟨39, _⟩ => ⟨S128x512, .f32⟩
  | .local _ .vmem, ⟨0, _⟩ => ⟨S128x1024, .f32⟩
  | .local _ .vmem, ⟨1, _⟩ => ⟨S1024x1024, .f32⟩
  | .local _ .vmem, ⟨2, _⟩ => ⟨S128x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S512x512 : S_.BroadcastsInDim S512x512 (![] : Fin 0 → Fin S512x512.rank)
  transposes_S512x512_S512x512_1_0 : S512x512.Transposes [1, 0] S512x512
  concatenates_S512x512_S512x512_S512x1024_d1 : Shape.Concatenates [S512x512, S512x512] S512x1024 1
  concatenates_S512x1024_S512x1024_S1024x1024_d0 : Shape.Concatenates [S512x1024, S512x1024] S1024x1024 0
  concatenates_S128x512_S128x512_S128x1024_d1 : Shape.Concatenates [S128x512, S128x512] S128x1024 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S128x1024_S128x512_0_0 : S128x1024.Slices ![0, 0] S128x512
  slices_S128x1024_S128x512_0_512 : S128x1024.Slices ![0, 512] S128x512
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_v23) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512 : Shape := ⟨2, ![128, 512]⟩
abbrev S512x512 : Shape := ⟨2, ![512, 512]⟩
abbrev S_ : Shape := ⟨0, ![]⟩
abbrev S128x1x512 : Shape := ⟨3, ![128, 1, 512]⟩
abbrev S1x512x512 : Shape := ⟨3, ![1, 512, 512]⟩
abbrev S128x512x512 : Shape := ⟨3, ![128, 512, 512]⟩

abbrev nBuf : Space → Nat
  | .hbm => 44
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S512x512, .f32⟩
  | .hbm, ⟨3, _⟩ => ⟨S512x512, .f32⟩
  | .hbm, ⟨4, _⟩ => ⟨S512x512, .i1⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S128x1x512, .f32⟩
  | .hbm, ⟨12, _⟩ => ⟨S128x1x512, .f32⟩
  | .hbm, ⟨13, _⟩ => ⟨S1x512x512, .f32⟩
  | .hbm, ⟨14, _⟩ => ⟨S128x512x512, .f32⟩
  | .hbm, ⟨15, _⟩ => ⟨S128x512x512, .f32⟩
  | .hbm, ⟨16, _⟩ => ⟨S128x512x512, .f32⟩
  | .hbm, ⟨17, _⟩ => ⟨S128x512x512, .f32⟩
  | .hbm, ⟨18, _⟩ => ⟨S128x512x512, .f32⟩
  | .hbm, ⟨19, _⟩ => ⟨S1x512x512, .f32⟩
  | .hbm, ⟨20, _⟩ => ⟨S128x512x512, .f32⟩
  | .hbm, ⟨21, _⟩ => ⟨S128x512x512, .f32⟩
  | .hbm, ⟨22, _⟩ => ⟨S128x512x512, .f32⟩
  | .hbm, ⟨23, _⟩ => ⟨S128x512x512, .f32⟩
  | .hbm, ⟨24, _⟩ => ⟨S1x512x512, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S_, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S1x512x512, .f32⟩
  | .hbm, ⟨35, _⟩ => ⟨S128x512x512, .f32⟩
  | .hbm, ⟨36, _⟩ => ⟨S128x512x512, .f32⟩
  | .hbm, ⟨37, _⟩ => ⟨S_, .f32⟩
  | .hbm, ⟨38, _⟩ => ⟨S128x512, .f32⟩
  | .hbm, ⟨39, _⟩ => ⟨S1x512x512, .f32⟩
  | .hbm, ⟨40, _⟩ => ⟨S128x512x512, .f32⟩
  | .hbm, ⟨41, _⟩ => ⟨S128x512x512, .f32⟩
  | .hbm, ⟨42, _⟩ => ⟨S_, .f32⟩
  | .hbm, ⟨43, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S128x512_S128x1x512_0_2 : S128x512.BroadcastsInDim S128x1x512 (![0, 2] : Fin 2 → Fin S128x1x512.rank)
  bcast_S512x512_S1x512x512_1_2 : S512x512.BroadcastsInDim S1x512x512 (![1, 2] : Fin 2 → Fin S1x512x512.rank)
  bcast_S128x1x512_S128x512x512_0_1_2 : S128x1x512.BroadcastsInDim S128x512x512 (![0, 1, 2] : Fin 3 → Fin S128x512x512.rank)
  bcast_S1x512x512_S128x512x512_0_1_2 : S1x512x512.BroadcastsInDim S128x512x512 (![0, 1, 2] : Fin 3 → Fin S128x512x512.rank)
  reducesTo_S128x512x512_S128x512_d2 : S128x512x512.ReducesTo [2] S128x512
  h_S_ : 0 < S_.numel

variable [Facts₀]

class Facts : Prop extends Facts₀ where

variable [Facts]
-- ==== Proof.Spec.lean ====
/-
  The lifting rotation, as one function of the argument arrays.

  For a batch row b, an output position k and a summation position i, with L = λ[k,i] / 2²⁰, G = γ[k,i] / 2²⁰ and the
  sign s[k,i] = −1 where the boolean table is set and 1 elsewhere, the three shears are
      x1 = x_re[b,i] + x_im[b,i]·L,      y1 = x_im[b,i] + x1·G,      x2 = x1 + y1·L,
  and the two results are   out_re[b,k] = 0 + Σ_i s·x2,   out_im[b,k] = 0 + Σ_i s·y1.
-/
import Idealize.ShloMosaic.PureOps.Ideal
import Idealize.ShloMosaic.Lib.ValueIdx

noncomputable section

namespace Cert.Lifting

open Idealize.ShloMosaic Idealize.ShloMosaic.ValueIdx

variable (xr xi : (⟨2, ![128, 512]⟩ : Shape).Idx → EReal) (lam gam : (⟨2, ![512, 512]⟩ : Shape).Idx → EReal)
  (neg : (⟨2, ![512, 512]⟩ : Shape).Idx → BitVec 1)

/-- The sign at (k, i). -/
def sgn (k i : Fin 512) : EReal :=
  Scalar.select (neg (ix2 k i)) (Ideal.ofBits .f32 0xBF800000#32) (Ideal.ofBits .f32 0x3F800000#32)

/-- A table entry divided by 2²⁰. -/
def quot (tab : (⟨2, ![512, 512]⟩ : Shape).Idx → EReal) (k i : Fin 512) : EReal :=
  Ideal.div (tab (ix2 k i)) (Ideal.ofBits .f32 0x49800000#32)

/-- The first shear. -/
def x1 (b : Fin 128) (k i : Fin 512) : EReal := xr (ix2 b i) + xi (ix2 b i) * quot lam k i

/-- The second shear. -/
def y1 (b : Fin 128) (k i : Fin 512) : EReal := xi (ix2 b i) + x1 xr xi lam b k i * quot gam k i

/-- The third shear. -/
def x2 (b : Fin 128) (k i : Fin 512) : EReal := x1 xr xi lam b k i + y1 xr xi lam gam b k i * quot lam k i

/-- The real part of the result. -/
def outRe : (⟨2, ![128, 512]⟩ : Shape).Idx → EReal := fun j =>
  Ideal.ofBits .f32 0x00000000#32 + ∑ i : Fin 512, sgn neg (j 1) i * x2 xr xi lam gam (j 0) (j 1) i

/-- The imaginary part of the result. -/
def outIm : (⟨2, ![128, 512]⟩ : Shape).Idx → EReal := fun j =>
  Ideal.ofBits .f32 0x00000000#32 + ∑ i : Fin 512, sgn neg (j 1) i * y1 xr xi lam gam (j 0) (j 1) i

end Cert.Lifting

end
-- ==== Proof.RefValue.lean ====
/-
  The reference's two results are the lifting rotation of its arguments.

  Each result element is the host's sum over the last axis of the sign times a shear; the broadcasts only choose
  which coordinates an operand is read at: the batch row b and the position i for the two inputs, the output position k
  and the position i for the three tables.
-/
import proofs.«110916_j7249904795701_2_alg».proof.Proof.Gen.ReferenceIdeal.Read
import proofs.«110916_j7249904795701_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Lifting

variable (x0 x1 : (⟨S128x512, .f32⟩ : BufTy).Contents (Elt Ideal)) (x2 x3 : (⟨S512x512, .f32⟩ : BufTy).Contents (Elt Ideal))
  (x4 : (⟨S512x512, .i1⟩ : BufTy).Contents (Elt Ideal))

/-- The three-axis index (b, k, i) of the broadcast arrays at result index j and summation position i. -/
theorem at_sum (b : Fin 128) (k i : Fin 512) : idx_main_v26 (ix2 b k) i = ix3 b k i := by
  funext a; apply Fin.ext; match a with | ⟨0, _⟩ => rfl | ⟨1, _⟩ => rfl | ⟨2, _⟩ => rfl
theorem at_sum' (b : Fin 128) (k i : Fin 512) : idx_main_v30 (ix2 b k) i = ix3 b k i := by
  funext a; apply Fin.ext; match a with | ⟨0, _⟩ => rfl | ⟨1, _⟩ => rfl | ⟨2, _⟩ => rfl

/-- An input broadcast along the output position is read at (b, i). -/
theorem at_in4 (b : Fin 128) (k i : Fin 512) : idx_main_v4 (idx_main_v10 (ix3 b k i)) = ix2 b i := by
  funext a; apply Fin.ext; match a with | ⟨0, _⟩ => rfl | ⟨1, _⟩ => rfl
theorem at_in7 (b : Fin 128) (k i : Fin 512) : idx_main_v5 (idx_main_v7 (ix3 b k i)) = ix2 b i := by
  funext a; apply Fin.ext; match a with | ⟨0, _⟩ => rfl | ⟨1, _⟩ => rfl
theorem at_in15 (b : Fin 128) (k i : Fin 512) : idx_main_v5 (idx_main_v15 (ix3 b k i)) = ix2 b i := by
  funext a; apply Fin.ext; match a with | ⟨0, _⟩ => rfl | ⟨1, _⟩ => rfl

/-- A table broadcast along the batch is read at (k, i). -/
theorem at_tab8 (b : Fin 128) (k i : Fin 512) : idx_main_v6 (idx_main_v8 (ix3 b k i)) = ix2 k i := by
  funext a; apply Fin.ext; match a with | ⟨0, _⟩ => rfl | ⟨1, _⟩ => rfl
theorem at_tab13 (b : Fin 128) (k i : Fin 512) : idx_main_v12 (idx_main_v13 (ix3 b k i)) = ix2 k i := by
  funext a; apply Fin.ext; match a with | ⟨0, _⟩ => rfl | ⟨1, _⟩ => rfl
theorem at_tab18 (b : Fin 128) (k i : Fin 512) : idx_main_v17 (idx_main_v18 (ix3 b k i)) = ix2 k i := by
  funext a; apply Fin.ext; match a with | ⟨0, _⟩ => rfl | ⟨1, _⟩ => rfl
theorem at_tab24 (b : Fin 128) (k i : Fin 512) : idx_main_v23 (idx_main_v24 (ix3 b k i)) = ix2 k i := by
  funext a; apply Fin.ext; match a with | ⟨0, _⟩ => rfl | ⟨1, _⟩ => rfl
theorem at_tab28 (b : Fin 128) (k i : Fin 512) : idx_main_v27 (idx_main_v28 (ix3 b k i)) = ix2 k i := by
  funext a; apply Fin.ext; match a with | ⟨0, _⟩ => rfl | ⟨1, _⟩ => rfl

/-- The reference's first result is the real part. -/
theorem re_eq : val_main_v26 (F := Ideal) x0 x1 x2 x3 x4 = outRe x0 x1 x2 x3 x4 := by
  funext j
  obtain ⟨b, k, rfl⟩ : ∃ (b : Fin 128) (k : Fin 512), j = ix2 b k := ⟨j 0, j 1, eq_ix2 j⟩
  rw [val_main_v26_apply]
  unfold outRe
  refine congrArg₂ (· + ·) rfl (Finset.sum_congr rfl fun i _ => ?_)
  rw [at_sum]
  simp only [Read.val_main_v25_apply, Read.val_main_v24_apply, Read.val_main_v23_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, Read.val_main_v10_apply, Read.val_main_v9_apply, Read.val_main_v8_apply, Read.val_main_v7_apply, Read.val_main_v6_apply, Read.val_main_v5_apply, Read.val_main_v4_apply, Read.val_main_v3_apply, Read.val_main_v2_apply, Read.val_main_v1_apply, Read.val_main_v0_apply, Read.val_main_cst_apply, Read.val_main_cst_0_apply, Read.val_main_v22_apply, Read.val_main_v21_apply, Read.val_main_call0_v0_apply, Read.val_main_call0_v1_apply, Read.val_main_cst_1_apply, Read.val_main_cst_2_apply,
    at_in4, at_in7, at_in15, at_tab8, at_tab13, at_tab18, at_tab24,
    Ideal.mulf_def, Ideal.addf_def, Ideal.hostDivf_def, Ideal.ofBits_def]
  rfl

/-- The reference's second result is the imaginary part. -/
theorem im_eq : val_main_v30 (F := Ideal) x0 x1 x2 x3 x4 = outIm x0 x1 x2 x3 x4 := by
  funext j
  obtain ⟨b, k, rfl⟩ : ∃ (b : Fin 128) (k : Fin 512), j = ix2 b k := ⟨j 0, j 1, eq_ix2 j⟩
  rw [val_main_v30_apply]
  unfold outIm
  refine congrArg₂ (· + ·) rfl (Finset.sum_congr rfl fun i _ => ?_)
  rw [at_sum']
  simp only [Read.val_main_v29_apply, Read.val_main_v28_apply, Read.val_main_v27_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, Read.val_main_v10_apply, Read.val_main_v9_apply, Read.val_main_v8_apply, Read.val_main_v7_apply, Read.val_main_v6_apply, Read.val_main_v5_apply, Read.val_main_v4_apply, Read.val_main_v3_apply, Read.val_main_v2_apply, Read.val_main_v1_apply, Read.val_main_v0_apply, Read.val_main_cst_apply, Read.val_main_cst_0_apply, Read.val_main_v22_apply, Read.val_main_v21_apply, Read.val_main_call0_v0_apply, Read.val_main_call0_v1_apply, Read.val_main_cst_1_apply, Read.val_main_cst_2_apply,
    at_in4, at_in7, at_in15, at_tab8, at_tab13, at_tab18, at_tab28,
    Ideal.mulf_def, Ideal.addf_def, Ideal.hostDivf_def, Ideal.ofBits_def]
  rfl

end Cert.ReferenceIdeal.RefValue

end
-- ==== Proof.Operands.lean ====
/-
  The kernel's two operands as the host lines before the launch compute them.

  The tables are scaled by 2⁻²⁰ (L from the lambdas, G from the gammas) and a sign table s is chosen between −1 and 1
  by the boolean table. Expanding the three shears  x1 = xr + xi·L,  y1 = xi + x1·G,  x2 = x1 + y1·L  in (xr, xi) gives
      x2 = xr·(1 + L·G) + xi·(2·L + L·L·G),      y1 = xr·G + xi·(1 + L·G),
  so the host builds three coefficient tables  s·(1 + L·G),  s·(2·L + L·L·G),  s·G,  transposes each (rows become the
  summation position i, columns the output position k), and lays them out as one 1024 × 1024 matrix
      [ s(1+LG)ᵀ   (sG)ᵀ     ]
      [ s(2L+LLG)ᵀ s(1+LG)ᵀ ]
  against the 128 × 1024 row block  [ x_re | x_im ].
-/
import proofs.«110916_j7249904795701_2_alg».proof.Proof.Gen.KernelIdeal.Frame
import Idealize.ShloMosaic.PureOps.Ideal

noncomputable section

namespace Cert.KernelIdeal.Operands

open Cert.KernelIdeal Cert.KernelIdeal.Gen Idealize.ShloMosaic Idealize.ShloMosaic.TcCoe Idealize.SL.Sem Idealize.ShloMosaic.StableHlo

/-- A table scaled by 2⁻²⁰. -/
def scaled (tab : FVec Ideal S512x512 .f32) : FVec Ideal S512x512 .f32 :=
  mulf tab (broadcastInDim S512x512 ![] bcast_S_S512x512 (constant (F := Ideal) S_ .f32 0x35800000#32))

/-- The sign table: −1 where the boolean table is set, 1 elsewhere. -/
def sign (neg : IVec S512x512 1) : FVec Ideal S512x512 .f32 :=
  id (select neg (broadcastInDim S512x512 ![] bcast_S_S512x512 (constant (F := Ideal) S_ .f32 0xBF800000#32))
    (broadcastInDim S512x512 ![] bcast_S_S512x512 (constant (F := Ideal) S_ .f32 0x3F800000#32)))

/-- s·(1 + L·G), rows k, columns i. -/
def coefA (lam gam : FVec Ideal S512x512 .f32) (neg : IVec S512x512 1) : FVec Ideal S512x512 .f32 :=
  mulf (sign neg) (addf (broadcastInDim S512x512 ![] bcast_S_S512x512 (constant (F := Ideal) S_ .f32 0x3F800000#32))
    (mulf (scaled lam) (scaled gam)))

/-- s·(2·L + L·L·G), rows k, columns i. -/
def coefB (lam gam : FVec Ideal S512x512 .f32) (neg : IVec S512x512 1) : FVec Ideal S512x512 .f32 :=
  mulf (sign neg) (addf (mulf (broadcastInDim S512x512 ![] bcast_S_S512x512 (constant (F := Ideal) S_ .f32 0x40000000#32)) (scaled lam))
    (mulf (mulf (scaled lam) (scaled lam)) (scaled gam)))

/-- s·G, rows k, columns i. -/
def coefC (gam : FVec Ideal S512x512 .f32) (neg : IVec S512x512 1) : FVec Ideal S512x512 .f32 :=
  mulf (sign neg) (scaled gam)

/-- A table transposed: rows i, columns k. -/
def tr (x : FVec Ideal S512x512 .f32) : FVec Ideal S512x512 .f32 :=
  transpose S512x512 [1, 0] x transposes_S512x512_S512x512_1_0

/-- The coefficient matrix. -/
def matM (lam gam : FVec Ideal S512x512 .f32) (neg : IVec S512x512 1) : FVec Ideal S1024x1024 .f32 :=
  concatenate S1024x1024 0
    [⟨S512x1024, concatenate S512x1024 1 [⟨S512x512, tr (coefA lam gam neg)⟩, ⟨S512x512, tr (coefC gam neg)⟩] concatenates_S512x512_S512x512_S512x1024_d1⟩,
     ⟨S512x1024, concatenate S512x1024 1 [⟨S512x512, tr (coefB lam gam neg)⟩, ⟨S512x512, tr (coefA lam gam neg)⟩] concatenates_S512x512_S512x512_S512x1024_d1⟩]
    concatenates_S512x1024_S512x1024_S1024x1024_d0

/-- The row block [ x_re | x_im ]. -/
def rowX (xr xi : FVec Ideal S128x512 .f32) : FVec Ideal S128x1024 .f32 :=
  concatenate S128x1024 1 [⟨S128x512, xr⟩, ⟨S128x512, xi⟩] concatenates_S128x512_S128x512_S128x1024_d1

variable (m : (ℓ : Loc nD τ sig) → Buf (Elt Ideal) ℓ)

/-- The first operand's array, as the launch finds it, is the row block of the two argument arrays. -/
theorem entry_X (c : Dev nD) :
    (V m c main_v23 : S128x1024.Idx → EReal)
      = rowX (m ((c.tc : Thread nD τ).loc main_arg0)) (m ((c.tc : Thread nD τ).loc main_arg1)) := by
  dsimp only [Gen.V, Gen.V0]
  simp only [Gen.hostOps0, Gen.hostOps0_1, Gen.hostOps0_2, List.flatten_cons, List.flatten_nil, List.append_nil, List.cons_append,
    List.nil_append]
  after_results_simp
  rfl

/-- The second operand's array, as the launch finds it, is the coefficient matrix of the three table arguments. -/
theorem entry_M (c : Dev nD) :
    (V m c main_v22 : S1024x1024.Idx → EReal)
      = matM (m ((c.tc : Thread nD τ).loc main_arg2)) (m ((c.tc : Thread nD τ).loc main_arg3)) (m ((c.tc : Thread nD τ).loc main_arg4)) := by
  dsimp only [Gen.V, Gen.V0]
  simp only [Gen.hostOps0, Gen.hostOps0_1, Gen.hostOps0_2, List.flatten_cons, List.flatten_nil, List.append_nil, List.cons_append,
    List.nil_append]
  after_results_simp
  rfl

end Cert.KernelIdeal.Operands

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.Product.lean ====
/-
  The kernel's result array: the product of the row block with the coefficient matrix.

  The body loads both operands whole, multiplies them into a zero accumulator and stores the product whole; the grid has
  one point and every block is its whole array. So entry (b, j) of the result array is
      Σ_{u < 1024}  X[b, u] · M[u, j]
  of the two operand arrays as the launch finds them.
-/
import proofs.«110916_j7249904795701_2_alg».proof.Proof.Gen.KernelIdeal.Frame
import proofs.«110916_j7249904795701_2_alg».proof.Proof.LibPlainDot
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Product

open Cert.KernelIdeal Cert.KernelIdeal.Gen Idealize.ShloMosaic Idealize.ShloMosaic.TcCoe Idealize.SL.Sem
open Idealize.ShloMosaic.ValueIdx Idealize.ShloMosaic.Pipeline

/-- The product of a 128 × 1024 array with a 1024 × 1024 array, entry by entry. -/
def prod (X : S128x1024.Idx → EReal) (M : S1024x1024.Idx → EReal) : S128x1024.Idx → EReal :=
  fun j => ∑ u : Fin 1024, X (ix2 (j 0) u) * M (ix2 u (j 1))

/-- The printed dimension numbers are those of a plain product. -/
theorem dims_plain : dot_S128x1024_S1024x1024_S128x1024_1_0_0_1_n_n = DotDims.plain 128 1024 1024 := rfl

/-- The body's stored value is the product of its two loaded blocks. -/
theorem pay_eq (x0 : FVec Ideal S128x1024 .f32) (x1 : FVec Ideal S1024x1024 .f32) :
    k0_pay1 (F := Ideal) x0 x1 = prod x0 x1 := by
  funext j
  unfold k0_pay1
  simp only [shapeCast_self]
  show FloatOps.matmul dot_S128x1024_S1024x1024_S128x1024_1_0_0_1_n_n (some .fp32) x0 x1
    (constant (F := Ideal) S128x1024 .f32 0x00000000#32) j = _
  rw [dims_plain]
  exact Cert.LibPlainDot.matmul_zero_apply 128 1024 1024 (some .fp32) x0 x1 j

theorem hz : (![0, 0] : Fin 2 → Nat) = fun _ => 0 := funext fun a => by fin_cases a <;> rfl

/-- Every window's one block starts at the origin of its array. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

variable (m : (ℓ : Loc nD τ sig) → Buf (Elt Ideal) ℓ)

/-- The first operand's array as the launch finds it. -/
abbrev arrX (c : Dev nD) : S128x1024.Idx → EReal := V m c main_v23
/-- The second operand's array as the launch finds it. -/
abbrev arrM (c : Dev nD) : S1024x1024.Idx → EReal := V m c main_v22

/-- What the grid's point writes back is its block of the product of the two operand arrays. -/
theorem flushed_eq (c : Dev nD) (t : Fin cfg0.N) :
    (dats m 0 c).flushed 2 t
      = ((cfg0.win 2).blk t).view.read (Elt Ideal) (prod (arrX m c) (arrM m c)) := by
  show (cfg0.win 2).cut (grid0.coords t) ((dats m 0 c).after 2 t) = _
  rw [after0_2]
  unfold out0_2
  rw [View.canon_unit_zero hz]
  simp only [View.ld_unit_zero (S := S128x1024) hz, View.ld_unit_zero (S := S1024x1024) hz]
  rw [pay_eq]
  obtain ⟨e0, e1, e2, e3, e4, e5⟩ := idx_facts t
  funext j
  show (∑ u : Fin 1024, arrX m c (((cfg0.win 0).blk t).view.emb (ix2 (j 0) u))
        * arrM m c (((cfg0.win 1).blk t).view.emb (ix2 u (j 1))))
     = ∑ u : Fin 1024, arrX m c (ix2 ((((cfg0.win 2).blk t).view.emb j) 0) u)
        * arrM m c (ix2 u ((((cfg0.win 2).blk t).view.emb j) 1))
  refine Finset.sum_congr rfl fun u _ => ?_
  have h0 : ((cfg0.win 0).blk t).view.emb (ix2 (j 0) u) = ix2 ((((cfg0.win 2).blk t).view.emb j) 0) u := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 1024 + 1 * u.val = u.val; omega
  have h1 : ((cfg0.win 1).blk t).view.emb (ix2 u (j 1)) = ix2 u ((((cfg0.win 2).blk t).view.emb j) 1) := by
    funext a; apply Fin.ext
    match a with
    | ⟨0, _⟩ => show win0_1.index t (0 : Fin 2) * 1024 + 1 * u.val = u.val; omega
    | ⟨1, _⟩ => show win0_1.index t (1 : Fin 2) * 1024 + 1 * (j 1).val = win0_2.index t (1 : Fin 2) * 1024 + 1 * (j 1).val; omega
  rw [h0, h1]
  rfl

/-- Every entry of the result array lies in the one block. -/
theorem cover (i : S128x1024.Idx) :
    ∃ t : Fin cfg0.N, (cfg0.win 2).flush t = true ∧ i ∈ ((cfg0.win 2).blk t).view.set := by
  refine ⟨t0_0, flush0_2 t0_0, ?_⟩
  obtain ⟨e0, e1, e2, e3, e4, e5⟩ := idx_facts t0_0
  show i ∈ ((View.whole main_v24).slice (win0_2.rect t0_0)).set
  rw [View.set_slice_whole, Rect.mem_set_unit]
  intro a
  match a with
  | ⟨0, _⟩ =>
    show win0_2.index t0_0 (0 : Fin 2) * 128 ≤ (i 0).val ∧ (i 0).val < win0_2.index t0_0 (0 : Fin 2) * 128 + 128
    have := idx2_lt0 i; omega
  | ⟨1, _⟩ =>
    show win0_2.index t0_0 (1 : Fin 2) * 1024 ≤ (i 1).val ∧ (i 1).val < win0_2.index t0_0 (1 : Fin 2) * 1024 + 1024
    have := idx2_lt1 i; omega

/-- The result array after the run is the product of the two operand arrays. -/
theorem final (c : Dev nD) :
    (dats m 0 c).arrAt 2 cfg0.N = prod (arrX m c) (arrM m c) :=
  (dats m 0 c).arrAt_eq_of_cover 2 (prod (arrX m c) (arrM m c)) (fun t _ => flushed_eq m c t) cover

end Cert.KernelIdeal.Product

end
-- ==== Proof.Halves.lean ====
/-
  The kernel's run: its two results as the two halves of the product.

  After the launch the result array holds the product of the row block with the coefficient matrix; the two host lines
  after it slice out columns 0–511 and columns 512–1023. The argument arrays end as they began.
-/
import proofs.«110916_j7249904795701_2_alg».proof.Proof.Gen.KernelIdeal.Frame
import proofs.«110916_j7249904795701_2_alg».proof.Proof.Operands
import proofs.«110916_j7249904795701_2_alg».proof.Proof.Product
import Idealize.ShloMosaic.Lib.StableHlo.Run

noncomputable section

namespace Cert.KernelIdeal.Halves

open Cert.KernelIdeal Cert.KernelIdeal.Gen Cert.KernelIdeal.Operands Cert.KernelIdeal.Product
open Idealize.ShloMosaic Idealize.ShloMosaic.TcCoe Idealize.SL.Sem Idealize.ShloMosaic.StableHlo

variable (m : (ℓ : Loc nD τ sig) → Buf (Elt Ideal) ℓ) (ρ : Dev nD → PrngReg)

/-- The product of the two operand arrays as the launch finds them, in terms of the argument arrays. -/
theorem prod_args (c : Dev nD) :
    prod (arrX m c) (arrM m c)
      = prod (rowX (m ((c.tc : Thread nD τ).loc main_arg0)) (m ((c.tc : Thread nD τ).loc main_arg1)))
          (matM (m ((c.tc : Thread nD τ).loc main_arg2)) (m ((c.tc : Thread nD τ).loc main_arg3)) (m ((c.tc : Thread nD τ).loc main_arg4))) := by
  show prod (V m c main_v23) (V m c main_v22) = _
  rw [entry_X, entry_M]

/-- What the region leaves in the result array is the product. -/
theorem region_array (c : Dev nD) :
    (Pipeline.withArrays (cfgs 0).spec c (V0 m c) (fun w => (dats m 0 c).arrAt w (cfgs 0).N) (Proc.devRef .tc main_v24)
        : S128x1024.Idx → EReal)
      = prod (arrX m c) (arrM m c) :=
  (Pipeline.withArrays_arr spec0 launch0.win.arr_inj c _ _ 2).trans (final m c)

/-- The first result: columns 0–511 of the product. -/
theorem tail_re (c : Dev nD) :
    (Pipeline.afterTail₀ cfgs (dats m) 0 (V0 m) [hostOps1] c main_v25 : S128x512.Idx → EReal)
      = extractStridedSlice S128x512 ![0, 0]
          (prod (rowX (m ((c.tc : Thread nD τ).loc main_arg0)) (m ((c.tc : Thread nD τ).loc main_arg1)))
            (matM (m ((c.tc : Thread nD τ).loc main_arg2)) (m ((c.tc : Thread nD τ).loc main_arg3)) (m ((c.tc : Thread nD τ).loc main_arg4))))
          slices_S128x1024_S128x512_0_0 := by
  unfold Pipeline.afterTail₀
  show StableHlo.after hostOps1 _ (Proc.devRef .tc main_v25) = _
  after_results
  rw [← prod_args]
  exact congrArg (fun P => extractStridedSlice S128x512 ![0, 0] P slices_S128x1024_S128x512_0_0) (region_array m c)

/-- The second result: columns 512–1023 of the product. -/
theorem tail_im (c : Dev nD) :
    (Pipeline.afterTail₀ cfgs (dats m) 0 (V0 m) [hostOps1] c main_v26 : S128x512.Idx → EReal)
      = extractStridedSlice S128x512 ![0, 512]
          (prod (rowX (m ((c.tc : Thread nD τ).loc main_arg0)) (m ((c.tc : Thread nD τ).loc main_arg1)))
            (matM (m ((c.tc : Thread nD τ).loc main_arg2)) (m ((c.tc : Thread nD τ).loc main_arg3)) (m ((c.tc : Thread nD τ).loc main_arg4))))
          slices_S128x1024_S128x512_0_512 := by
  unfold Pipeline.afterTail₀
  show StableHlo.after hostOps1 _ (Proc.devRef .tc main_v26) = _
  after_results
  rw [← prod_args]
  exact congrArg (fun P => extractStridedSlice S128x512 ![0, 512] P slices_S128x1024_S128x512_0_512) (region_array m c)

/-- Every weakly fair execution of the kernel's program terminates with the two results at the two halves of the
    product and the arguments unchanged. -/
theorem run : θ_run defs (onTc (τ := τ) (main (F := Ideal))) ⟨m, fun _ => 0, ρ⟩ fun r => ∀ c : Dev nD,
      r.2.mem ((c.tc : Thread nD τ).loc main_v25) = extractStridedSlice S128x512 ![0, 0]
          (prod (rowX (m ((c.tc : Thread nD τ).loc main_arg0)) (m ((c.tc : Thread nD τ).loc main_arg1)))
            (matM (m ((c.tc : Thread nD τ).loc main_arg2)) (m ((c.tc : Thread nD τ).loc main_arg3)) (m ((c.tc : Thread nD τ).loc main_arg4))))
          slices_S128x1024_S128x512_0_0
      ∧ r.2.mem ((c.tc : Thread nD τ).loc main_v26) = extractStridedSlice S128x512 ![0, 512]
          (prod (rowX (m ((c.tc : Thread nD τ).loc main_arg0)) (m ((c.tc : Thread nD τ).loc main_arg1)))
            (matM (m ((c.tc : Thread nD τ).loc main_arg2)) (m ((c.tc : Thread nD τ).loc main_arg3)) (m ((c.tc : Thread nD τ).loc main_arg4))))
          slices_S128x1024_S128x512_0_512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v25 (Pipeline.mem_restRefs_of main_v25 (by decide) (by decide))).trans (tail_re m c),
     ((h c).2 main_v26 (Pipeline.mem_restRefs_of main_v26 (by decide) (by decide))).trans (tail_im m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Halves

end
-- ==== Proof.Layout.lean ====
/-
  The operands read entry by entry.

  The row block [ x_re | x_im ] holds x_re in its first 512 columns and x_im in its last 512. The coefficient matrix
  holds, in its four 512 × 512 quadrants, the transposed tables: top left and bottom right s·(1 + L·G), top right s·G,
  bottom left s·(2·L + L·L·G); entry (i, k) of a transposed table is entry (k, i) of the table.
-/
import proofs.«110916_j7249904795701_2_alg».proof.Proof.Operands
import proofs.«110916_j7249904795701_2_alg».proof.Proof.Spec
import Idealize.ShloMosaic.Lib.Pipeline.Value
import Idealize.ShloMosaic.Lib.ValueIdx
import Idealize.ShloMosaic.Lib.ValueLayout

noncomputable section

namespace Cert.KernelIdeal.Operands

open Cert.KernelIdeal Cert.KernelIdeal.Gen Idealize.ShloMosaic Idealize.ShloMosaic.ValueIdx

variable (xr xi : FVec Ideal S128x512 .f32) (lam gam : FVec Ideal S512x512 .f32) (neg : IVec S512x512 1)

/-- The first 512 columns of the row block are x_re. -/
theorem rowX_left (b : Fin 128) (i : Fin 512) :
    rowX xr xi (ix2 b (⟨i.val, by omega⟩ : Fin 1024)) = xr (ix2 b i) := by
  unfold rowX
  exact concatenate_pair_apply_left (t := S128x1024) (s₁ := S128x512) (s₂ := S128x512) (1 : Fin 2) xr xi
    concatenates_S128x512_S128x512_S128x1024_d1 (ix2 b (⟨i.val, by omega⟩ : Fin 1024)) rfl (ix2 b i)
    (fun c => match c with | ⟨0, _⟩ => rfl | ⟨1, _⟩ => rfl)

/-- The last 512 columns of the row block are x_im. -/
theorem rowX_right (b : Fin 128) (i : Fin 512) :
    rowX xr xi (ix2 b (⟨512 + i.val, by omega⟩ : Fin 1024)) = xi (ix2 b i) := by
  unfold rowX
  exact concatenate_pair_apply_right (t := S128x1024) (s₁ := S128x512) (s₂ := S128x512) (1 : Fin 2) xr xi
    concatenates_S128x512_S128x512_S128x1024_d1 (ix2 b (⟨512 + i.val, by omega⟩ : Fin 1024)) rfl rfl (ix2 b i)
    (fun c hc => match c, hc with | ⟨0, _⟩, _ => rfl | ⟨1, _⟩, hc => absurd rfl hc)
    (by show i.val + 512 = 512 + i.val; omega)

/-- A transposed table at (i, k) is the table at (k, i). -/
theorem tr_apply (x : FVec Ideal S512x512 .f32) (i k : Fin 512) : tr x (ix2 i k) = x (ix2 k i) := by
  unfold tr
  exact transpose_ix2_apply x transposes_S512x512_S512x512_1_0 i k

/-- The top left quadrant. -/
theorem matM_tl (i k : Fin 512) :
    matM lam gam neg (ix2 (⟨i.val, by omega⟩ : Fin 1024) (⟨k.val, by omega⟩ : Fin 1024)) = coefA lam gam neg (ix2 k i) := by
  unfold matM
  rw [concatenate_pair_apply_left (t := S1024x1024) (s₁ := S512x1024) (s₂ := S512x1024) (0 : Fin 2) _ _
    concatenates_S512x1024_S512x1024_S1024x1024_d0 (ix2 (⟨i.val, by omega⟩ : Fin 1024) (⟨k.val, by omega⟩ : Fin 1024)) rfl
    (ix2 i (⟨k.val, by omega⟩ : Fin 1024)) (fun c => match c with | ⟨0, _⟩ => rfl | ⟨1, _⟩ => rfl)]
  rw [concatenate_pair_apply_left (t := S512x1024) (s₁ := S512x512) (s₂ := S512x512) (1 : Fin 2) _ _
    concatenates_S512x512_S512x512_S512x1024_d1 (ix2 i (⟨k.val, by omega⟩ : Fin 1024)) rfl
    (ix2 i k) (fun c => match c with | ⟨0, _⟩ => rfl | ⟨1, _⟩ => rfl)]
  exact tr_apply _ i k

/-- The top right quadrant. -/
theorem matM_tr (i k : Fin 512) :
    matM lam gam neg (ix2 (⟨i.val, by omega⟩ : Fin 1024) (⟨512 + k.val, by omega⟩ : Fin 1024)) = coefC gam neg (ix2 k i) := by
  unfold matM
  rw [concatenate_pair_apply_left (t := S1024x1024) (s₁ := S512x1024) (s₂ := S512x1024) (0 : Fin 2) _ _
    concatenates_S512x1024_S512x1024_S1024x1024_d0 (ix2 (⟨i.val, by omega⟩ : Fin 1024) (⟨512 + k.val, by omega⟩ : Fin 1024)) rfl
    (ix2 i (⟨512 + k.val, by omega⟩ : Fin 1024)) (fun c => match c with | ⟨0, _⟩ => rfl | ⟨1, _⟩ => rfl)]
  rw [concatenate_pair_apply_right (t := S512x1024) (s₁ := S512x512) (s₂ := S512x512) (1 : Fin 2) _ _
    concatenates_S512x512_S512x512_S512x1024_d1 (ix2 i (⟨512 + k.val, by omega⟩ : Fin 1024)) rfl rfl
    (ix2 i k) (fun c hc => match c, hc with | ⟨0, _⟩, _ => rfl | ⟨1, _⟩, hc => absurd rfl hc)
    (by show k.val + 512 = 512 + k.val; omega)]
  exact tr_apply _ i k

/-- The bottom left quadrant. -/
theorem matM_bl (i k : Fin 512) :
    matM lam gam neg (ix2 (⟨512 + i.val, by omega⟩ : Fin 1024) (⟨k.val, by omega⟩ : Fin 1024)) = coefB lam gam neg (ix2 k i) := by
  unfold matM
  rw [concatenate_pair_apply_right (t := S1024x1024) (s₁ := S512x1024) (s₂ := S512x1024) (0 : Fin 2) _ _
    concatenates_S512x1024_S512x1024_S1024x1024_d0 (ix2 (⟨512 + i.val, by omega⟩ : Fin 1024) (⟨k.val, by omega⟩ : Fin 1024)) rfl rfl
    (ix2 i (⟨k.val, by omega⟩ : Fin 1024)) (fun c hc => match c, hc with | ⟨0, _⟩, hc => absurd rfl hc | ⟨1, _⟩, _ => rfl)
    (by show i.val + 512 = 512 + i.val; omega)]
  rw [concatenate_pair_apply_left (t := S512x1024) (s₁ := S512x512) (s₂ := S512x512) (1 : Fin 2) _ _
    concatenates_S512x512_S512x512_S512x1024_d1 (ix2 i (⟨k.val, by omega⟩ : Fin 1024)) rfl
    (ix2 i k) (fun c => match c with | ⟨0, _⟩ => rfl | ⟨1, _⟩ => rfl)]
  exact tr_apply _ i k

/-- The bottom right quadrant. -/
theorem matM_br (i k : Fin 512) :
    matM lam gam neg (ix2 (⟨512 + i.val, by omega⟩ : Fin 1024) (⟨512 + k.val, by omega⟩ : Fin 1024)) = coefA lam gam neg (ix2 k i) := by
  unfold matM
  rw [concatenate_pair_apply_right (t := S1024x1024) (s₁ := S512x1024) (s₂ := S512x1024) (0 : Fin 2) _ _
    concatenates_S512x1024_S512x1024_S1024x1024_d0 (ix2 (⟨512 + i.val, by omega⟩ : Fin 1024) (⟨512 + k.val, by omega⟩ : Fin 1024)) rfl rfl
    (ix2 i (⟨512 + k.val, by omega⟩ : Fin 1024)) (fun c hc => match c, hc with | ⟨0, _⟩, hc => absurd rfl hc | ⟨1, _⟩, _ => rfl)
    (by show i.val + 512 = 512 + i.val; omega)]
  rw [concatenate_pair_apply_right (t := S512x1024) (s₁ := S512x512) (s₂ := S512x512) (1 : Fin 2) _ _
    concatenates_S512x512_S512x512_S512x1024_d1 (ix2 i (⟨512 + k.val, by omega⟩ : Fin 1024)) rfl rfl
    (ix2 i k) (fun c hc => match c, hc with | ⟨0, _⟩, _ => rfl | ⟨1, _⟩, hc => absurd rfl hc)
    (by show k.val + 512 = 512 + k.val; omega)]
  exact tr_apply _ i k

/-- A scalar word broadcast over a table is that word at every entry. -/
theorem splat_apply (w : BitVec 32) (j : S512x512.Idx) :
    broadcastInDim S512x512 ![] bcast_S_S512x512 (constant (F := Ideal) S_ .f32 w) j = Ideal.ofBits .f32 w :=
  broadcastInDim_apply _ bcast_S_S512x512 (constant (F := Ideal) S_ .f32 w) j (fun a => a.elim0) (fun a => a.elim0)

/-- A table scaled by 2⁻²⁰, at an entry. -/
theorem scaled_apply (tab : FVec Ideal S512x512 .f32) (j : S512x512.Idx) :
    scaled tab j = tab j * Ideal.ofBits .f32 0x35800000#32 := by
  unfold scaled
  show FloatOps.mulf (tab j) (broadcastInDim S512x512 ![] bcast_S_S512x512 (constant (F := Ideal) S_ .f32 0x35800000#32) j) = _
  rw [splat_apply]; rfl

/-- The sign table at (k, i). -/
theorem sign_apply (k i : Fin 512) : sign neg (ix2 k i) = Cert.Lifting.sgn neg k i := by
  unfold sign Cert.Lifting.sgn
  show Scalar.select (neg (ix2 k i)) (broadcastInDim S512x512 ![] bcast_S_S512x512 (constant (F := Ideal) S_ .f32 0xBF800000#32) (ix2 k i))
    (broadcastInDim S512x512 ![] bcast_S_S512x512 (constant (F := Ideal) S_ .f32 0x3F800000#32) (ix2 k i)) = _
  rw [splat_apply, splat_apply]

/-- s·(1 + L·G) at (k, i). -/
theorem coefA_apply (k i : Fin 512) :
    coefA lam gam neg (ix2 k i) = Cert.Lifting.sgn neg k i * (Ideal.ofBits .f32 0x3F800000#32
      + (lam (ix2 k i) * Ideal.ofBits .f32 0x35800000#32) * (gam (ix2 k i) * Ideal.ofBits .f32 0x35800000#32)) := by
  unfold coefA
  show FloatOps.mulf (sign neg (ix2 k i)) (FloatOps.addf (broadcastInDim S512x512 ![] bcast_S_S512x512 (constant (F := Ideal) S_ .f32 0x3F800000#32) (ix2 k i))
    (FloatOps.mulf (scaled lam (ix2 k i)) (scaled gam (ix2 k i)))) = _
  rw [splat_apply, sign_apply, scaled_apply, scaled_apply]; rfl

/-- s·(2·L + L·L·G) at (k, i). -/
theorem coefB_apply (k i : Fin 512) :
    coefB lam gam neg (ix2 k i) = Cert.Lifting.sgn neg k i * (Ideal.ofBits .f32 0x40000000#32 * (lam (ix2 k i) * Ideal.ofBits .f32 0x35800000#32)
      + (lam (ix2 k i) * Ideal.ofBits .f32 0x35800000#32) * (lam (ix2 k i) * Ideal.ofBits .f32 0x35800000#32)
        * (gam (ix2 k i) * Ideal.ofBits .f32 0x35800000#32)) := by
  unfold coefB
  show FloatOps.mulf (sign neg (ix2 k i)) (FloatOps.addf
    (FloatOps.mulf (broadcastInDim S512x512 ![] bcast_S_S512x512 (constant (F := Ideal) S_ .f32 0x40000000#32) (ix2 k i)) (scaled lam (ix2 k i)))
    (FloatOps.mulf (FloatOps.mulf (scaled lam (ix2 k i)) (scaled lam (ix2 k i))) (scaled gam (ix2 k i)))) = _
  rw [splat_apply, sign_apply, scaled_apply, scaled_apply]; rfl

/-- s·G at (k, i). -/
theorem coefC_apply (k i : Fin 512) :
    coefC gam neg (ix2 k i) = Cert.Lifting.sgn neg k i * (gam (ix2 k i) * Ideal.ofBits .f32 0x35800000#32) := by
  unfold coefC
  show FloatOps.mulf (sign neg (ix2 k i)) (scaled gam (ix2 k i)) = _
  rw [sign_apply, scaled_apply]; rfl

end Cert.KernelIdeal.Operands

end
-- ==== Proof.Words.lean ====
/-
  The float words the two programs spell, as the extended reals they denote.

  The kernel scales the integer tables by the word for 2⁻²⁰ and the reference divides them by the word for 2²⁰;
  both are exact powers of two, so on the reals the two scalings are one. The kernel's coefficient matrix also
  spells 1 and 2, and both programs choose a sign between the words for −1 and 1.
-/
import Idealize.ShloMosaic.PureOps.Ideal
import Idealize.ShloMosaic.PureOps.Ideal.Laws

noncomputable section

namespace Cert.Words

open Idealize.ShloMosaic

/-- The kernel's scale: 2⁻²⁰ = 1 / 1048576. -/
theorem inv_scale : Ideal.ofBits .f32 0x35800000#32 = ((1 / 1048576 : ℝ) : EReal) := by
  simp [Ideal.ofBits, Ideal.ieee, -EReal.coe_mul]; norm_num

/-- The reference's divisor: 2²⁰ = 1048576. -/
theorem scale : Ideal.ofBits .f32 0x49800000#32 = ((1048576 : ℝ) : EReal) := by
  simp [Ideal.ofBits, Ideal.ieee, -EReal.coe_mul]; norm_num

/-- 1.0 -/
theorem one : Ideal.ofBits .f32 0x3F800000#32 = ((1 : ℝ) : EReal) := by
  simp [Ideal.ofBits, Ideal.ieee, -EReal.coe_mul]; norm_num

/-- 2.0 -/
theorem two : Ideal.ofBits .f32 0x40000000#32 = ((2 : ℝ) : EReal) := by
  simp [Ideal.ofBits, Ideal.ieee, -EReal.coe_mul]; norm_num

/-- −1.0 -/
theorem neg_one : Ideal.ofBits .f32 0xBF800000#32 = ((-1 : ℝ) : EReal) := by
  simp [Ideal.ofBits, Ideal.ieee, -EReal.coe_mul]; norm_num

/-- +0.0 -/
theorem zero : Ideal.ofBits .f32 0x00000000#32 = ((0 : ℝ) : EReal) := by
  rw [Ideal.ofBits_zero_f32]; rfl

end Cert.Words

end
-- ==== Proof.Sums.lean ====
/-
  Finite sums on the extended reals.

  The coercion of the reals into the extended reals commutes with finite sums, and a sum over 1024 positions is the
  sum over the first 512 plus the sum over the last 512.
-/
import Idealize.ShloMosaic.PureOps.Ideal

noncomputable section

namespace Cert.Sums

open Idealize.ShloMosaic

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum over 1024 positions, split at 512. -/
theorem sum_split (f : Fin 1024 → EReal) :
    ∑ t : Fin 1024, f t = (∑ i : Fin 512, f ⟨i.val, by omega⟩) + ∑ i : Fin 512, f ⟨512 + i.val, by omega⟩ := by
  have h := Fin.sum_univ_add (fun t : Fin (512 + 512) => f t)
  exact h

/-- The sign chosen between the words for −1 and 1 is a real number. -/
theorem sign_real (c : BitVec 1) (a b : EReal) (ha : ∃ r : ℝ, a = r) (hb : ∃ r : ℝ, b = r) :
    ∃ r : ℝ, Scalar.select c a b = r := by
  unfold Scalar.select
  split
  · exact ha
  · exact hb

end Cert.Sums

end
-- ==== Proof.Bridge.lean ====
/-
  The product of the row block with the coefficient matrix is the lifting rotation.

  Entry (b, k) of the left half of the product is  Σ_i x_re[b,i]·s(1 + L·G) + Σ_i x_im[b,i]·s(2·L + L·L·G),  entry
  (b, k) of its right half is  Σ_i x_re[b,i]·s·G + Σ_i x_im[b,i]·s(1 + L·G),  with L = λ[k,i]·2⁻²⁰, G = γ[k,i]·2⁻²⁰.
  When every input entry is a real number, multiplication distributes over the sums and
      xr·(1 + L·G) + xi·(2·L + L·L·G) = x1 + y1·L,        xr·G + xi·(1 + L·G) = y1,
  where x1 = xr + xi·L and y1 = xi + x1·G; multiplying by 2⁻²⁰ is dividing by 2²⁰. On the extended reals the law needs
  the entries finite: distributivity fails at the infinities.
-/
import proofs.«110916_j7249904795701_2_alg».proof.Proof.Layout
import proofs.«110916_j7249904795701_2_alg».proof.Proof.Product
import proofs.«110916_j7249904795701_2_alg».proof.Proof.Words
import proofs.«110916_j7249904795701_2_alg».proof.Proof.Sums

noncomputable section

namespace Cert.KernelIdeal.Bridge

open Cert.KernelIdeal Cert.KernelIdeal.Gen Cert.KernelIdeal.Operands Cert.KernelIdeal.Product Cert.Lifting
open Idealize.ShloMosaic Idealize.ShloMosaic.ValueIdx

variable (xr xi : FVec Ideal S128x512 .f32) (lam gam : FVec Ideal S512x512 .f32) (neg : IVec S512x512 1)

/-- The product in the first 512 columns: the real-part coefficients. -/
theorem prod_left (b : Fin 128) (k : Fin 512) :
    prod (rowX xr xi) (matM lam gam neg) (ix2 b (⟨k.val, by omega⟩ : Fin 1024))
      = (∑ i : Fin 512, xr (ix2 b i) * coefA lam gam neg (ix2 k i))
        + ∑ i : Fin 512, xi (ix2 b i) * coefB lam gam neg (ix2 k i) := by
  unfold prod
  show (∑ u : Fin 1024, rowX xr xi (ix2 b u) * matM lam gam neg (ix2 u (⟨k.val, by omega⟩ : Fin 1024))) = _
  rw [Cert.Sums.sum_split]
  simp only [rowX_left, rowX_right, matM_tl, matM_bl]

/-- The product in the last 512 columns: the imaginary-part coefficients. -/
theorem prod_right (b : Fin 128) (k : Fin 512) :
    prod (rowX xr xi) (matM lam gam neg) (ix2 b (⟨512 + k.val, by omega⟩ : Fin 1024))
      = (∑ i : Fin 512, xr (ix2 b i) * coefC gam neg (ix2 k i))
        + ∑ i : Fin 512, xi (ix2 b i) * coefA lam gam neg (ix2 k i) := by
  unfold prod
  show (∑ u : Fin 1024, rowX xr xi (ix2 b u) * matM lam gam neg (ix2 u (⟨512 + k.val, by omega⟩ : Fin 1024))) = _
  rw [Cert.Sums.sum_split]
  simp only [rowX_left, rowX_right, matM_tr, matM_br]

/-- The first result is the first 512 columns of the product. -/
theorem slice_left (P : S128x1024.Idx → EReal) (b : Fin 128) (k : Fin 512) :
    extractStridedSlice S128x512 ![0, 0] P slices_S128x1024_S128x512_0_0 (ix2 b k) = P (ix2 b (⟨k.val, by omega⟩ : Fin 1024)) :=
  extractStridedSlice_apply _ P _ (ix2 b k) (ix2 b (⟨k.val, by omega⟩ : Fin 1024)) (fun a => match a with
    | ⟨0, _⟩ => by show b.val = 0 + b.val; omega
    | ⟨1, _⟩ => by show k.val = 0 + k.val; omega)

/-- The second result is the last 512 columns of the product. -/
theorem slice_right (P : S128x1024.Idx → EReal) (b : Fin 128) (k : Fin 512) :
    extractStridedSlice S128x512 ![0, 512] P slices_S128x1024_S128x512_0_512 (ix2 b k) = P (ix2 b (⟨512 + k.val, by omega⟩ : Fin 1024)) :=
  extractStridedSlice_apply _ P _ (ix2 b k) (ix2 b (⟨512 + k.val, by omega⟩ : Fin 1024)) (fun a => match a with
    | ⟨0, _⟩ => by show b.val = 0 + b.val; omega
    | ⟨1, _⟩ => by show 512 + k.val = 512 + k.val; rfl)

variable (hxr : ∀ i, ∃ r : ℝ, xr i = r) (hxi : ∀ i, ∃ r : ℝ, xi i = r)
  (hlam : ∀ i, ∃ r : ℝ, lam i = r) (hgam : ∀ i, ∃ r : ℝ, gam i = r)

include hxr hxi hlam hgam

/-- On real inputs the first 512 columns of the product are the real part of the rotation. -/
theorem re_eq :
    extractStridedSlice S128x512 ![0, 0] (prod (rowX xr xi) (matM lam gam neg)) slices_S128x1024_S128x512_0_0
      = outRe xr xi lam gam neg := by
  funext j
  obtain ⟨b, k, rfl⟩ : ∃ (b : Fin 128) (k : Fin 512), j = ix2 b k := ⟨j 0, j 1, eq_ix2 j⟩
  rw [slice_left, prod_left]
  simp only [coefA_apply, coefB_apply]
  show _ = Ideal.ofBits .f32 0x00000000#32 + ∑ i : Fin 512, sgn neg k i * x2 xr xi lam gam b k i
  unfold x2 y1 x1 quot
  choose fr hfr using hxr
  choose fi hfi using hxi
  choose fl hfl using hlam
  choose fg hfg using hgam
  have hs : ∀ k i, ∃ r : ℝ, sgn neg k i = r := fun k i =>
    Cert.Sums.sign_real _ _ _ ⟨-1, Cert.Words.neg_one⟩ ⟨1, Cert.Words.one⟩
  choose fs hfs using hs
  simp only [hfr, hfi, hfl, hfg, hfs, Cert.Words.one, Cert.Words.two, Cert.Words.inv_scale, Cert.Words.scale, Cert.Words.zero,
    Ideal.div_coe (by norm_num : (1048576 : ℝ) ≠ 0)]
  simp only [← EReal.coe_mul, ← EReal.coe_add, ← Cert.Sums.coe_sum]
  rw [EReal.coe_eq_coe_iff, zero_add, ← Finset.sum_add_distrib]
  exact Finset.sum_congr rfl fun i _ => by ring

/-- On real inputs the last 512 columns of the product are the imaginary part of the rotation. -/
theorem im_eq :
    extractStridedSlice S128x512 ![0, 512] (prod (rowX xr xi) (matM lam gam neg)) slices_S128x1024_S128x512_0_512
      = outIm xr xi lam gam neg := by
  funext j
  obtain ⟨b, k, rfl⟩ : ∃ (b : Fin 128) (k : Fin 512), j = ix2 b k := ⟨j 0, j 1, eq_ix2 j⟩
  rw [slice_right, prod_right]
  simp only [coefA_apply, coefC_apply]
  show _ = Ideal.ofBits .f32 0x00000000#32 + ∑ i : Fin 512, sgn neg k i * y1 xr xi lam gam b k i
  unfold y1 x1 quot
  choose fr hfr using hxr
  choose fi hfi using hxi
  choose fl hfl using hlam
  choose fg hfg using hgam
  have hs : ∀ k i, ∃ r : ℝ, sgn neg k i = r := fun k i =>
    Cert.Sums.sign_real _ _ _ ⟨-1, Cert.Words.neg_one⟩ ⟨1, Cert.Words.one⟩
  choose fs hfs using hs
  simp only [hfr, hfi, hfl, hfg, hfs, Cert.Words.one, Cert.Words.inv_scale, Cert.Words.scale, Cert.Words.zero,
    Ideal.div_coe (by norm_num : (1048576 : ℝ) ≠ 0)]
  simp only [← EReal.coe_mul, ← EReal.coe_add, ← Cert.Sums.coe_sum]
  rw [EReal.coe_eq_coe_iff, zero_add, ← Finset.sum_add_distrib]
  exact Finset.sum_congr rfl fun i _ => by ring

end Cert.KernelIdeal.Bridge

end
-- ==== Proof.Finite.lean ====
/-
  The precondition says every float argument holds real numbers.

  The precondition is the conjunction of four tests "every entry is below +∞ in absolute value", one per float
  argument. An extended real whose absolute value is strictly below +∞ is neither +∞ nor −∞: it is a real number.
-/
import proofs.«110916_j7249904795701_2_alg».proof.Pre_finite_inputs
import proofs.«110916_j7249904795701_2_alg».proof.Proof.Gen.Pre_finite_inputs
import Idealize.ShloMosaic.PureOps.Ideal
import Idealize.ShloMosaic.Lib.ValueIdx
import Idealize.ShloMosaic.Lib.ReduceAll
import Idealize.ShloMosaic.Lib.Affine

noncomputable section

namespace Cert.Pre_finite_inputs.Finite

open Cert.Pre_finite_inputs Cert.Pre_finite_inputs.Facts Idealize.ShloMosaic

instance : Subsingleton S_.Idx := ⟨fun a b => funext fun d => d.elim0⟩

/-- The word the test compares against denotes +∞. -/
theorem inf_word : Ideal.ofBits .f32 0x7F800000#32 = (⊤ : EReal) := by
  simp [Ideal.ofBits, Ideal.ieee]

/-- An extended real whose absolute value is strictly below +∞ is a real number. -/
theorem real_of_test (x : EReal) (h : Ideal.cmp .olt (max x (-x)) (Ideal.ofBits .f32 0x7F800000#32) = 1#1) :
    ∃ r : ℝ, x = r := by
  rw [inf_word] at h
  induction x using EReal.rec with
  | bot => simp [Ideal.cmp] at h
  | coe r => exact ⟨r, rfl⟩
  | top => simp [Ideal.cmp] at h

/-- Under the precondition the four float arguments hold real numbers. -/
theorem reals (a0 a1 : FVec Ideal S128x512 .f32) (a2 a3 : FVec Ideal S512x512 .f32) (a4 : IVec S512x512 1)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨hh0, hh1⟩ := IntOp.andi_eq_one.mp h01
  refine ⟨fun i => ?_, fun i => ?_, fun i => ?_, fun i => ?_⟩
  · exact real_of_test (a0 i) (Host.reduce_andi_all _ _ _ _ _ hh0 i)
  · exact real_of_test (a1 i) (Host.reduce_andi_all _ _ _ _ _ hh1 i)
  · exact real_of_test (a2 i) (Host.reduce_andi_all _ _ _ _ _ h2 i)
  · exact real_of_test (a3 i) (Host.reduce_andi_all _ _ _ _ _ h3 i)

end Cert.Pre_finite_inputs.Finite

end
-- ==== Proof.lean ====
/-
  A complex rotation by three shears, summed against a sign table: one matrix product against the broadcast-and-reduce.

  The reference computes, for a batch row b and an output position k,
      out_re[b,k] = Σ_i s[k,i]·x2,    out_im[b,k] = Σ_i s[k,i]·y1,
  with  x1 = x_re[b,i] + x_im[b,i]·L,  y1 = x_im[b,i] + x1·G,  x2 = x1 + y1·L,  L = λ[k,i] / 2²⁰,  G = γ[k,i] / 2²⁰  and
  s = ∓1 by the boolean table. The kernel expands the shears, which are linear in (x_re, x_im), into coefficient tables
  s·(1 + L·G), s·(2·L + L·L·G), s·G with L = λ·2⁻²⁰, G = γ·2⁻²⁰, lays their transposes out as one 1024 × 1024 matrix
  and multiplies the row block [ x_re | x_im ] by it; the two results are the two column halves of the product.

  On the extended reals the two agree when every float input is a real number (the precondition): the product's sum
  over 1024 positions splits into the x_re half and the x_im half, 2⁻²⁰ is the reciprocal of 2²⁰, and then each term
  is one ring identity. Distributivity is where finiteness is used.

  The pieces: the words as reals (Words), finite sums (Sums), the specification (Spec), the reference read down to
  it (RefValue), the kernel's operands as terms of the arguments (Operands), entry by entry (Layout), the launch's result
  array as the product (Product), the two results as its halves (Halves), the shear law (Bridge), the precondition
  as "the inputs are reals" (Finite).
-/
import proofs.«110916_j7249904795701_2_alg».proof.Defs
import proofs.«110916_j7249904795701_2_alg».proof.Proof.Gen.Kernel
import proofs.«110916_j7249904795701_2_alg».proof.Proof.Gen.Kernel.Skeleton
import proofs.«110916_j7249904795701_2_alg».proof.Proof.Gen.Kernel.Launch
import proofs.«110916_j7249904795701_2_alg».proof.Proof.Gen.Kernel.Points
import proofs.«110916_j7249904795701_2_alg».proof.Proof.Gen.Kernel.Frame
import proofs.«110916_j7249904795701_2_alg».proof.Proof.Gen.KernelIdeal
import proofs.«110916_j7249904795701_2_alg».proof.Proof.Gen.KernelIdeal.Skeleton
import proofs.«110916_j7249904795701_2_alg».proof.Proof.Gen.KernelIdeal.Launch
import proofs.«110916_j7249904795701_2_alg».proof.Proof.Gen.KernelIdeal.Points
import proofs.«110916_j7249904795701_2_alg».proof.Proof.Gen.KernelIdeal.Frame
import proofs.«110916_j7249904795701_2_alg».proof.Proof.Gen.ReferenceIdeal
import proofs.«110916_j7249904795701_2_alg».proof.Proof.Gen.Pre_finite_inputs
import proofs.«110916_j7249904795701_2_alg».proof.Proof.Gen.ReferenceIdeal.Run
import proofs.«110916_j7249904795701_2_alg».proof.Proof.Gen.ReferenceIdeal.Read
import proofs.«110916_j7249904795701_2_alg».proof.Proof.RefValue
import proofs.«110916_j7249904795701_2_alg».proof.Proof.Halves
import proofs.«110916_j7249904795701_2_alg».proof.Proof.Bridge
import proofs.«110916_j7249904795701_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the two parts of the rotation of their (agreeing) arguments. -/
theorem algebraic : Cert.algebraic_KernelIdeal_ReferenceIdeal := by
  intro m ρ m' ρ' hpre hagree
  refine ⟨fun c => Cert.Lifting.outRe (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Lifting.outIm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ?_) (Cert.KernelIdeal.Halves.run m ρ)
    obtain ⟨r0, r1, r2, r3⟩ := Cert.Pre_finite_inputs.Finite.reals _ _ _ _ _ (hpre c)
    exact ⟨(h c).1.trans (Cert.KernelIdeal.Bridge.re_eq _ _ _ _ _ r0 r1 r2 r3),
      (h c).2.1.trans (Cert.KernelIdeal.Bridge.im_eq _ _ _ _ _ r0 r1 r2 r3), (h c).2.2⟩
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v26_eq, Cert.ReferenceIdeal.RefValue.re_eq,
        (hagree c).1, (hagree c).2.1, (hagree c).2.2.1, (hagree c).2.2.2.1, (hagree c).2.2.2.2]
    · rw [(h c).2.1, Cert.ReferenceIdeal.Read.val_main_v30_eq, Cert.ReferenceIdeal.RefValue.im_eq,
        (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
